-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024x1024 : Shape := ⟨3, ![64, 1024, 1024]⟩
abbrev S64x128 : Shape := ⟨2, ![64, 128]⟩
abbrev S128x128 : Shape := ⟨2, ![128, 128]⟩
abbrev S128x51 : Shape := ⟨2, ![128, 51]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128x51 : S_.BroadcastsInDim S128x51 (![] : Fin 0 → Fin S128x51.rank)
  reducesTo_S128x51_S_d0_1 : S128x51.ReducesTo [0, 1] S_

variable [Facts]

def fn_part1 {F : FTy → Type} [FloatOps F] (main_arg4 : FVec F S128x128 .f32) (main_arg5 : FVec F S128x51 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x51 .f32 := Host.absf main_arg5
  let main_cst_8 : FVec F S_ .f32 := constant S_ .f32 0x7F800000#32
  let main_v25 : FVec F S128x51 .f32 := broadcastInDim S128x51 ![] bcast_S_S128x51 main_cst_8
  let main_v26 : IVec S128x51 1 := cmpf .olt main_v24 main_v25
  let main_c_9 : IVec S_ 1 := constantI S_ 1 1#1
  let main_v27 : IVec S_ 1 := (fun x v => Host.reduce IntOp.andi x v reducesTo_S128x51_S_d0_1 h_S_) main_v26 main_c_9
  let main_v28 : IVec S_ 1 := andi main_v23 main_v27
  main_v28

def fn {F : FTy → Type} [FloatOps F] (main_arg0 : FVec F S64x1024x64 .f32) (main_arg1 : FVec F S64x1024x1024 .f32) (main_arg2 : FVec F S64x128 .f32) (main_arg3 : FVec F S128x128 .f32) (main_arg4 : FVec F S128x128 .f32) (main_arg5 : FVec F S128x51 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S64x1024x64 : Shape := ⟨3, ![64, 1024, 64]⟩
abbrev S64x1024x1024 : Shape := ⟨3, ![64, 1024, 1024]⟩
abbrev S64x128 : Shape := ⟨2, ![64, 128]⟩
abbrev S128x128 : Shape := ⟨2, ![128, 128]⟩
abbrev S128x51 : Shape := ⟨2, ![128, 51]⟩
abbrev S64x1x51 : Shape := ⟨3, ![64, 1, 51]⟩
abbrev S2x1024x1024 : Shape := ⟨3, ![2, 1024, 1024]⟩
abbrev S2x1024x64 : Shape := ⟨3, ![2, 1024, 64]⟩
abbrev S2x1x51 : Shape := ⟨3, ![2, 1, 51]⟩
abbrev S1x1024x1024 : Shape := ⟨3, ![1, 1024, 1024]⟩
abbrev S1024x1024 : Shape := ⟨2, ![1024, 1024]⟩
abbrev S1x1024x64 : Shape := ⟨3, ![1, 1024, 64]⟩
abbrev S1024x64 : Shape := ⟨2, ![1024, 64]⟩
abbrev S1024x128 : Shape := ⟨2, ![1024, 128]⟩
abbrev S1024x51 : Shape := ⟨2, ![1024, 51]⟩
abbrev S51 : Shape := ⟨1, ![51]⟩
abbrev S1x51 : Shape := ⟨2, ![1, 51]⟩
abbrev S1x1x51 : Shape := ⟨3, ![1, 1, 51]⟩
abbrev S64x51 : Shape := ⟨2, ![64, 51]⟩

abbrev nBuf : Space → Nat
  | .hbm => 8
  | .vmem => 10
  | .smem => 0
  | _ => 0

abbrev bufTy : (tb : Table) → Fin (tcTables nBuf tb) → BufTy
  | .hbm, ⟨0, _⟩ => ⟨S64x1024x64, .f32⟩
  | .hbm, ⟨1, _⟩ => ⟨S64x1024x1024, .f32⟩
  | .hbm, ⟨2, _⟩ => ⟨S64x128, .f32⟩
  | .hbm, ⟨3, _⟩ => ⟨S128x128, .f32⟩
  | .hbm, ⟨4, _⟩ => ⟨S128x128, .f32⟩
  | .hbm, ⟨5, _⟩ => ⟨S128x51, .f32⟩
  | .hbm, ⟨6, _⟩ => ⟨S64x1x51, .f32⟩
  | .hbm, ⟨7, _⟩ => ⟨S64x51, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x64, .f32⟩
  | .local _ .vmem, ⟨3, _⟩ => ⟨S2x1024x64, .f32⟩
  | .local _ .vmem, ⟨4, _⟩ => ⟨S64x128, .f32⟩
  | .local _ .vmem, ⟨5, _⟩ => ⟨S128x128, .f32⟩
  | .local _ .vmem, ⟨6, _⟩ => ⟨S128x128, .f32⟩
  | .local _ .vmem, ⟨7, _⟩ => ⟨S128x51, .f32⟩
  | .local _ .vmem, ⟨8, _⟩ => ⟨S2x1x51, .f32⟩
  | .local _ .vmem, ⟨9, _⟩ => ⟨S2x1x51, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x51 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x51 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x51_S128x51_0_0 : ∀ a, (![0, 0] : Fin 2 → Nat) a + S128x51.size a ≤ S128x51.size a
  h_S128x51 : 0 < S128x51.numel
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S2x1024x64_S1x1024x64_0_0_0 : ∀ a, (![0, 0, 0] : Fin 3 → Nat) a + S1x1024x64.size a ≤ S2x1024x64.size a
  h_S1x1024x64 : 0 < S1x1024x64.numel
  shapeCasts_S1x1024x64_S1024x64 : S1x1024x64.ShapeCasts S1024x64
  reduces_S1024x51_S51 : S1024x51.Reduces [0] S51
  shapeCasts_S51_S1x51 : S51.ShapeCasts S1x51
  inb_S2x1x51_S1x1x51_0_0_0 : ∀ a, (![0, 0, 0] : Fin 3 → Nat) a + S1x1x51.size a ≤ S2x1x51.size a
  h_S1x1x51 : 0 < S1x1x51.numel
  shapeCasts_S1x1x51_S1x51 : S1x1x51.ShapeCasts S1x51
  shapeCasts_S1x51_S1x1x51 : S1x51.ShapeCasts S1x1x51
  inb_S2x1024x1024_S1x1024x1024_1_0_0 : ∀ a, (![1, 0, 0] : Fin 3 → Nat) a + S1x1024x1024.size a ≤ S2x1024x1024.size a
  inb_S2x1024x64_S1x1024x64_1_0_0 : ∀ a, (![1, 0, 0] : Fin 3 → Nat) a + S1x1024x64.size a ≤ S2x1024x64.size a
  inb_S2x1x51_S1x1x51_1_0_0 : ∀ a, (![1, 0, 0] : Fin 3 → Nat) a + S1x1x51.size a ≤ S2x1x51.size a
  shapeCasts_S64x1x51_S64x51 : S64x1x51.ShapeCasts S64x51
  dot_S1024x64_S64x128_S1024x128_1_0_0_1_n_n_wf : DotDims.WF S1024x64 S64x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x51_S1024x51_1_0_0_1_n_n_wf : DotDims.WF S1024x128 S128x51 S1024x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S64x1024x1024.size a
  hwx0_0 : ∀ i : grid0.Coords, EltTy.bits .f32 = 32 ∨ (Rect.block (s := S64x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S64x1024x64.size a
  hwx0_1 : ∀ i : grid0.Coords, EltTy.bits .f32 = 32 ∨ (Rect.block (s := S64x1024x64) S2x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x51.size a ≤ S128x51.size a
  hwx0_5 : ∀ i : grid0.Coords, EltTy.bits .f32 = 32 ∨ (Rect.block (s := S128x51) S128x51.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x51.size a ≤ S64x1x51.size a
  hwx0_6 : ∀ i : grid0.Coords, EltTy.bits .f32 = 32 ∨ (Rect.block (s := S64x1x51) S2x1x51.size (cc0_transform_6 i) (hinb0_6 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x51_S1024x51_1_0_0_1_n_n : DotDims S1024x128 S128x51 S1024x51 where
  lhsContracting := [1]
  rhsContracting := [0]
  lhsNonContracting := [0]
  rhsNonContracting := [1]
  lhsBatch := []
  rhsBatch := []
  wf := dot_S1024x128_S128x51_S1024x51_1_0_0_1_n_n_wf

abbrev win0_0 : Pipeline.Window sig grid0 :=
  Pipeline.Window.ofSpec (Memref.whole main_arg1) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x51.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2x1x51.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S64x128 : Shape := ⟨2, ![64, 128]⟩
abbrev S128x128 : Shape := ⟨2, ![128, 128]⟩
abbrev S128x51 : Shape := ⟨2, ![128, 51]⟩
abbrev S64x1024x128 : Shape := ⟨3, ![64, 1024, 128]⟩
abbrev S_ : Shape := ⟨0, ![]⟩
abbrev S64x1024x51 : Shape := ⟨3, ![64, 1024, 51]⟩
abbrev S64x51 : Shape := ⟨2, ![64, 51]⟩

abbrev nBuf : Space → Nat
  | .hbm => 27
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x1024, .f32⟩
  | .hbm, ⟨2, _⟩ => ⟨S64x128, .f32⟩
  | .hbm, ⟨3, _⟩ => ⟨S128x128, .f32⟩
  | .hbm, ⟨4, _⟩ => ⟨S128x128, .f32⟩
  | .hbm, ⟨5, _⟩ => ⟨S128x51, .f32⟩
  | .hbm, ⟨6, _⟩ => ⟨S64x1024x128, .f32⟩
  | .hbm, ⟨7, _⟩ => ⟨S64x1024x128, .f32⟩
  | .hbm, ⟨8, _⟩ => ⟨S_, .f32⟩
  | .hbm, ⟨9, _⟩ => ⟨S64x1024x128, .f32⟩
  | .hbm, ⟨10, _⟩ => ⟨S64x1024x128, .f32⟩
  | .hbm, ⟨11, _⟩ => ⟨S64x1024x128, .f32⟩
  | .hbm, ⟨12, _⟩ => ⟨S64x1024x128, .f32⟩
  | .hbm, ⟨13, _⟩ => ⟨S_, .f32⟩
  | .hbm, ⟨14, _⟩ => ⟨S64x1024x128, .f32⟩
  | .hbm, ⟨15, _⟩ => ⟨S64x1024x128, .f32⟩
  | .hbm, ⟨16, _⟩ => ⟨S64x1024x128, .f32⟩
  | .hbm, ⟨17, _⟩ => ⟨S64x1024x128, .f32⟩
  | .hbm, ⟨18, _⟩ => ⟨S_, .f32⟩
  | .hbm, ⟨19, _⟩ => ⟨S64x1024x128, .f32⟩
  | .hbm, ⟨20, _⟩ => ⟨S64x1024x128, .f32⟩
  | .hbm, ⟨21, _⟩ => ⟨S64x1024x51, .f32⟩
  | .hbm, ⟨22, _⟩ => ⟨S_, .f32⟩
  | .hbm, ⟨23, _⟩ => ⟨S64x1024x51, .f32⟩
  | .hbm, ⟨24, _⟩ => ⟨S64x1024x51, .f32⟩
  | .hbm, ⟨25, _⟩ => ⟨S_, .f32⟩
  | .hbm, ⟨26, _⟩ => ⟨S64x51, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call2_cst : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_call3_cst : Ref sig .tc := ⟨.hbm, 22, rfl⟩
abbrev main_call3_v0 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩

abbrev nD : Nat := 1
abbrev τ : Topo := Topo.v7x

variable {F : FTy → Type} [FloatOps F]

class Facts₀ : Prop where
  bcast_S_S64x1024x128 : S_.BroadcastsInDim S64x1024x128 (![] : Fin 0 → Fin S64x1024x128.rank)
  bcast_S_S64x1024x51 : S_.BroadcastsInDim S64x1024x51 (![] : Fin 0 → Fin S64x1024x51.rank)
  reducesTo_S64x1024x51_S64x51_d1 : S64x1024x51.ReducesTo [1] S64x51
  h_S_ : 0 < S_.numel
  dot_S64x1024x64_S64x128_S64x1024x128_2_0_01_1_n_n_wf : DotDims.WF S64x1024x64 S64x128 S64x1024x128 [2] [0] [0, 1] [1] [] []
  dot_S64x1024x1024_S64x1024x128_S64x1024x128_2_1_1_2_0_0_wf : DotDims.WF S64x1024x1024 S64x1024x128 S64x1024x128 [2] [1] [1] [2] [0] [0]
  dot_S64x1024x128_S128x128_S64x1024x128_2_0_01_1_n_n_wf : DotDims.WF S64x1024x128 S128x128 S64x1024x128 [2] [0] [0, 1] [1] [] []
  dot_S64x1024x128_S128x51_S64x1024x51_2_0_01_1_n_n_wf : DotDims.WF S64x1024x128 S128x51 S64x1024x51 [2] [0] [0, 1] [1] [] []

variable [Facts₀]

def dot_S64x1024x64_S64x128_S64x1024x128_2_0_01_1_n_n : DotDims S64x1024x64 S64x128 S64x1024x128 where
  lhsContracting := [2]
  rhsContracting := [0]
  lhsNonContracting := [0, 1]
  rhsNonContracting := [1]
  lhsBatch := []
  rhsBatch := []
  wf := dot_S64x1024x64_S64x128_S64x1024x128_2_0_01_1_n_n_wf
def dot_S64x1024x1024_S64x1024x128_S64x1024x128_2_1_1_2_0_0 : DotDims S64x1024x1024 S64x1024x128 S64x1024x128 where
  lhsContracting := [2]
  rhsContracting := [1]
  lhsNonContracting := [1]
  rhsNonContracting := [2]
  lhsBatch := [0]
  rhsBatch := [0]
  wf := dot_S64x1024x1024_S64x1024x128_S64x1024x128_2_1_1_2_0_0_wf
def dot_S64x1024x128_S128x128_S64x1024x128_2_0_01_1_n_n : DotDims S64x1024x128 S128x128 S64x1024x128 where
  lhsContracting := [2]
  rhsContracting := [0]
  lhsNonContracting := [0, 1]
  rhsNonContracting := [1]
  lhsBatch := []
  rhsBatch := []
  wf := dot_S64x1024x128_S128x128_S64x1024x128_2_0_01_1_n_n_wf
def dot_S64x1024x128_S128x51_S64x1024x51_2_0_01_1_n_n : DotDims S64x1024x128 S128x51 S64x1024x51 where
  lhsContracting := [2]
  rhsContracting := [0]
  lhsNonContracting := [0, 1]
  rhsNonContracting := [1]
  lhsBatch := []
  rhsBatch := []
  wf := dot_S64x1024x128_S128x51_S64x1024x51_2_0_01_1_n_n_wf

class Facts : Prop extends Facts₀ where

variable [Facts]
-- ==== Proof.GcnSpec.lean ====
/-
  The function both programs compute, written once over plain coordinates.

  A batch holds 64 graphs of 1024 nodes. For one graph with adjacency `a` (1024 × 1024) and node features `x`
  (1024 × 64), a graph convolution sends node features `h` to `relu (a · (h · W))`; three of them, with weights
  `W0`, `W1`, `W2`, are followed by a dense read-out `relu (h · Wd)` on every node and by the sum of the read-outs
  over the nodes. Every product and sum is the exact one on the extended reals, and the rectifier is the maximum
  with the number the zero word denotes, so nothing here depends on the order in which a machine adds.
-/
import Idealize.ShloMosaic.PureOps.Ideal
import Idealize.ShloMosaic.Lib.ValueIdx

noncomputable section

namespace Cert.Gcn

open Idealize.ShloMosaic Idealize.ShloMosaic.ValueIdx
open scoped BigOperators

/-- A matrix product by coordinates: entry `(n, c)` of `h · W` is the sum over `k` of `h n k * W k c`. -/
def feat {N K C : ℕ} (h : Fin N → Fin K → EReal) (W : Fin K → Fin C → EReal) (n : Fin N) (c : Fin C) : EReal :=
  ∑ k : Fin K, h n k * W k c

/-- The rectified product: entry `(n, c)` of `a · y`, or the floor `z` where that is larger. -/
def agg {N K C : ℕ} (z : EReal) (a : Fin N → Fin K → EReal) (y : Fin K → Fin C → EReal) (n : Fin N) (c : Fin C) : EReal :=
  max (feat a y n c) z

/-- The node features after the three graph convolutions. -/
def hidden {N F C0 C1 C2 : ℕ} (z : EReal) (a : Fin N → Fin N → EReal) (x : Fin N → Fin F → EReal)
    (W0 : Fin F → Fin C0 → EReal) (W1 : Fin C0 → Fin C1 → EReal) (W2 : Fin C1 → Fin C2 → EReal) : Fin N → Fin C2 → EReal :=
  agg z a (feat (agg z a (feat (agg z a (feat x W0)) W1)) W2)

/-- The graph's read-out: the rectified dense layer on every node, summed over the nodes. -/
def pooled {N F C0 C1 C2 O : ℕ} (z : EReal) (a : Fin N → Fin N → EReal) (x : Fin N → Fin F → EReal)
    (W0 : Fin F → Fin C0 → EReal) (W1 : Fin C0 → Fin C1 → EReal) (W2 : Fin C1 → Fin C2 → EReal)
    (Wd : Fin C2 → Fin O → EReal) (o : Fin O) : EReal :=
  ∑ n : Fin N, agg z (hidden z a x W0 W1 W2) Wd n o

/-- The number the f32 zero word denotes: the rectifier's floor. -/
abbrev zw : EReal := Ideal.ofBits .f32 0x00000000#32

/-- A two-axis array as a function of its two coordinates. -/
abbrev mat {K C : ℕ} (W : (⟨2, ![K, C]⟩ : Shape).Idx → EReal) : Fin K → Fin C → EReal := fun k c => W (ix2 k c)

/-- Matrix `b` of a stack of matrices, as a function of its two coordinates. -/
abbrev slab {B N K : ℕ} (x : (⟨3, ![B, N, K]⟩ : Shape).Idx → EReal) (b : Fin B) : Fin N → Fin K → EReal :=
  fun n k => x (ix3 b n k)

/-- The whole result: entry `(b, o)` is graph `b`'s read-out `o`. -/
def result (x : (⟨3, ![64, 1024, 64]⟩ : Shape).Idx → EReal) (a : (⟨3, ![64, 1024, 1024]⟩ : Shape).Idx → EReal)
    (W0 : (⟨2, ![64, 128]⟩ : Shape).Idx → EReal) (W1 W2 : (⟨2, ![128, 128]⟩ : Shape).Idx → EReal)
    (Wd : (⟨2, ![128, 51]⟩ : Shape).Idx → EReal) : (⟨2, ![64, 51]⟩ : Shape).Idx → EReal :=
  fun i => pooled zw (slab a (i 0)) (slab x (i 0)) (mat W0) (mat W1) (mat W2) (mat Wd) (i 1)

end Cert.Gcn

end
-- ==== Proof.GcnReference.lean ====
/-
  The reference, stage by stage, is the specification.

  The reference works on the whole batch at once: each of its contractions keeps the graph coordinate and sums over one
  other axis, so graph `b`'s matrix of every intermediate array is the specification's formula for that graph — the
  feature products, the adjacency products with their rectifier, the read-out — and the final sum over the nodes,
  started from the zero word, is `pooled`.
-/
import proofs.«137630_j11897059410630_2_alg».proof.Proof.Gen.ReferenceIdeal.Read
import proofs.«137630_j11897059410630_2_alg».proof.Proof.GcnSpec

noncomputable section

namespace Cert.ReferenceIdeal.RefValue

open Cert.ReferenceIdeal Cert.ReferenceIdeal.Read Idealize.ShloMosaic Idealize.ShloMosaic.ValueIdx Cert.Gcn
open scoped BigOperators

variable (x0 : (⟨S64x1024x64, .f32⟩ : BufTy).Contents (Elt Ideal)) (x1 : (⟨S64x1024x1024, .f32⟩ : BufTy).Contents (Elt Ideal)) (x2 : (⟨S64x128, .f32⟩ : BufTy).Contents (Elt Ideal)) (x3 x4 : (⟨S128x128, .f32⟩ : BufTy).Contents (Elt Ideal)) (x5 : (⟨S128x51, .f32⟩ : BufTy).Contents (Elt Ideal))

/-- Graph `b`'s features times the first weight. -/
theorem v0_slab (b : Fin 64) : slab (val_main_v0 (F := Ideal) x0 x2) b = feat (slab x0 b) (mat x2) := by
  funext n c
  show val_main_v0 (F := Ideal) x0 x2 (ix3 b n c) = ∑ k : Fin 64, x0 (ix3 b n k) * x2 (ix2 k c)
  rw [val_main_v0_apply]
  refine Finset.sum_congr rfl fun k _ => ?_
  have el : lidx_main_v0 (ix3 b n c) k = ix3 b n k := funext fun a => by match a with | ⟨0, _⟩ => rfl | ⟨1, _⟩ => rfl | ⟨2, _⟩ => rfl
  have er : ridx_main_v0 (ix3 b n c) k = ix2 k c := funext fun a => by match a with | ⟨0, _⟩ => rfl | ⟨1, _⟩ => rfl
  rw [el, er]

/-- The first adjacency product, before its rectifier. -/
theorem v1_slab (b : Fin 64) : slab (val_main_v1 (F := Ideal) x0 x1 x2) b = feat (slab x1 b) (feat (slab x0 b) (mat x2)) := by
  funext n c
  show val_main_v1 (F := Ideal) x0 x1 x2 (ix3 b n c) = ∑ k : Fin 1024, x1 (ix3 b n k) * (feat (slab x0 b) (mat x2)) k c
  rw [val_main_v1_apply]
  refine Finset.sum_congr rfl fun k _ => ?_
  have el : lidx_main_v1 (ix3 b n c) k = ix3 b n k := funext fun a => by match a with | ⟨0, _⟩ => rfl | ⟨1, _⟩ => rfl | ⟨2, _⟩ => rfl
  have er : ridx_main_v1 (ix3 b n c) k = ix3 b k c := funext fun a => by match a with | ⟨0, _⟩ => rfl | ⟨1, _⟩ => rfl | ⟨2, _⟩ => rfl
  rw [el, er]
  exact congrArg (x1 (ix3 b n k) * ·) (congrFun (congrFun (v0_slab x0 x2 b) k) c)

/-- The first convolution's output. -/
theorem v2_slab (b : Fin 64) : slab (val_main_v2 (F := Ideal) x0 x1 x2) b = agg zw (slab x1 b) (feat (slab x0 b) (mat x2)) := by
  funext n c
  show max (val_main_v1 (F := Ideal) x0 x1 x2 (ix3 b n c)) (val_main_call0_v0 (F := Ideal) (ix3 b n c)) = max ((feat (slab x1 b) (feat (slab x0 b) (mat x2))) n c) zw
  rw [val_main_call0_v0_apply, val_main_call0_cst_apply]
  exact congrArg (max · zw) (congrFun (congrFun (v1_slab x0 x1 x2 b) n) c)

/-- Times the second weight. -/
theorem v3_slab (b : Fin 64) : slab (val_main_v3 (F := Ideal) x0 x1 x2 x3) b = feat (agg zw (slab x1 b) (feat (slab x0 b) (mat x2))) (mat x3) := by
  funext n c
  show val_main_v3 (F := Ideal) x0 x1 x2 x3 (ix3 b n c) = ∑ k : Fin 128, (agg zw (slab x1 b) (feat (slab x0 b) (mat x2))) n k * x3 (ix2 k c)
  rw [val_main_v3_apply]
  refine Finset.sum_congr rfl fun k _ => ?_
  have el : lidx_main_v3 (ix3 b n c) k = ix3 b n k := funext fun a => by match a with | ⟨0, _⟩ => rfl | ⟨1, _⟩ => rfl | ⟨2, _⟩ => rfl
  have er : ridx_main_v3 (ix3 b n c) k = ix2 k c := funext fun a => by match a with | ⟨0, _⟩ => rfl | ⟨1, _⟩ => rfl
  rw [el, er]
  exact congrArg (· * x3 (ix2 k c)) (congrFun (congrFun (v2_slab x0 x1 x2 b) n) k)

/-- The second adjacency product. -/
theorem v4_slab (b : Fin 64) : slab (val_main_v4 (F := Ideal) x0 x1 x2 x3) b = feat (slab x1 b) (feat (agg zw (slab x1 b) (feat (slab x0 b) (mat x2))) (mat x3)) := by
  funext n c
  show val_main_v4 (F := Ideal) x0 x1 x2 x3 (ix3 b n c) = ∑ k : Fin 1024, x1 (ix3 b n k) * (feat (agg zw (slab x1 b) (feat (slab x0 b) (mat x2))) (mat x3)) k c
  rw [val_main_v4_apply]
  refine Finset.sum_congr rfl fun k _ => ?_
  have el : lidx_main_v4 (ix3 b n c) k = ix3 b n k := funext fun a => by match a with | ⟨0, _⟩ => rfl | ⟨1, _⟩ => rfl | ⟨2, _⟩ => rfl
  have er : ridx_main_v4 (ix3 b n c) k = ix3 b k c := funext fun a => by match a with | ⟨0, _⟩ => rfl | ⟨1, _⟩ => rfl | ⟨2, _⟩ => rfl
  rw [el, er]
  exact congrArg (x1 (ix3 b n k) * ·) (congrFun (congrFun (v3_slab x0 x1 x2 x3 b) k) c)

/-- The second convolution's output. -/
theorem v5_slab (b : Fin 64) : slab (val_main_v5 (F := Ideal) x0 x1 x2 x3) b = agg zw (slab x1 b) (feat (agg zw (slab x1 b) (feat (slab x0 b) (mat x2))) (mat x3)) := by
  funext n c
  show max (val_main_v4 (F := Ideal) x0 x1 x2 x3 (ix3 b n c)) (val_main_call1_v0 (F := Ideal) (ix3 b n c)) = max ((feat (slab x1 b) (feat (agg zw (slab x1 b) (feat (slab x0 b) (mat x2))) (mat x3))) n c) zw
  rw [val_main_call1_v0_apply, val_main_call1_cst_apply]
  exact congrArg (max · zw) (congrFun (congrFun (v4_slab x0 x1 x2 x3 b) n) c)

/-- Times the third weight. -/
theorem v6_slab (b : Fin 64) : slab (val_main_v6 (F := Ideal) x0 x1 x2 x3 x4) b = feat (agg zw (slab x1 b) (feat (agg zw (slab x1 b) (feat (slab x0 b) (mat x2))) (mat x3))) (mat x4) := by
  funext n c
  show val_main_v6 (F := Ideal) x0 x1 x2 x3 x4 (ix3 b n c) = ∑ k : Fin 128, (agg zw (slab x1 b) (feat (agg zw (slab x1 b) (feat (slab x0 b) (mat x2))) (mat x3))) n k * x4 (ix2 k c)
  rw [val_main_v6_apply]
  refine Finset.sum_congr rfl fun k _ => ?_
  have el : lidx_main_v6 (ix3 b n c) k = ix3 b n k := funext fun a => by match a with | ⟨0, _⟩ => rfl | ⟨1, _⟩ => rfl | ⟨2, _⟩ => rfl
  have er : ridx_main_v6 (ix3 b n c) k = ix2 k c := funext fun a => by match a with | ⟨0, _⟩ => rfl | ⟨1, _⟩ => rfl
  rw [el, er]
  exact congrArg (· * x4 (ix2 k c)) (congrFun (congrFun (v5_slab x0 x1 x2 x3 b) n) k)

/-- The third adjacency product. -/
theorem v7_slab (b : Fin 64) : slab (val_main_v7 (F := Ideal) x0 x1 x2 x3 x4) b = feat (slab x1 b) (feat (agg zw (slab x1 b) (feat (agg zw (slab x1 b) (feat (slab x0 b) (mat x2))) (mat x3))) (mat x4)) := by
  funext n c
  show val_main_v7 (F := Ideal) x0 x1 x2 x3 x4 (ix3 b n c) = ∑ k : Fin 1024, x1 (ix3 b n k) * (feat (agg zw (slab x1 b) (feat (agg zw (slab x1 b) (feat (slab x0 b) (mat x2))) (mat x3))) (mat x4)) k c
  rw [val_main_v7_apply]
  refine Finset.sum_congr rfl fun k _ => ?_
  have el : lidx_main_v7 (ix3 b n c) k = ix3 b n k := funext fun a => by match a with | ⟨0, _⟩ => rfl | ⟨1, _⟩ => rfl | ⟨2, _⟩ => rfl
  have er : ridx_main_v7 (ix3 b n c) k = ix3 b k c := funext fun a => by match a with | ⟨0, _⟩ => rfl | ⟨1, _⟩ => rfl | ⟨2, _⟩ => rfl
  rw [el, er]
  exact congrArg (x1 (ix3 b n k) * ·) (congrFun (congrFun (v6_slab x0 x1 x2 x3 x4 b) k) c)

/-- The third convolution's output: the specification's `hidden`. -/
theorem v8_slab (b : Fin 64) : slab (val_main_v8 (F := Ideal) x0 x1 x2 x3 x4) b = agg zw (slab x1 b) (feat (agg zw (slab x1 b) (feat (agg zw (slab x1 b) (feat (slab x0 b) (mat x2))) (mat x3))) (mat x4)) := by
  funext n c
  show max (val_main_v7 (F := Ideal) x0 x1 x2 x3 x4 (ix3 b n c)) (val_main_call2_v0 (F := Ideal) (ix3 b n c)) = max ((feat (slab x1 b) (feat (agg zw (slab x1 b) (feat (agg zw (slab x1 b) (feat (slab x0 b) (mat x2))) (mat x3))) (mat x4))) n c) zw
  rw [val_main_call2_v0_apply, val_main_call2_cst_apply]
  exact congrArg (max · zw) (congrFun (congrFun (v7_slab x0 x1 x2 x3 x4 b) n) c)

/-- Times the read-out weight. -/
theorem v9_slab (b : Fin 64) : slab (val_main_v9 (F := Ideal) x0 x1 x2 x3 x4 x5) b = feat (agg zw (slab x1 b) (feat (agg zw (slab x1 b) (feat (agg zw (slab x1 b) (feat (slab x0 b) (mat x2))) (mat x3))) (mat x4))) (mat x5) := by
  funext n c
  show val_main_v9 (F := Ideal) x0 x1 x2 x3 x4 x5 (ix3 b n c) = ∑ k : Fin 128, (agg zw (slab x1 b) (feat (agg zw (slab x1 b) (feat (agg zw (slab x1 b) (feat (slab x0 b) (mat x2))) (mat x3))) (mat x4))) n k * x5 (ix2 k c)
  rw [val_main_v9_apply]
  refine Finset.sum_congr rfl fun k _ => ?_
  have el : lidx_main_v9 (ix3 b n c) k = ix3 b n k := funext fun a => by match a with | ⟨0, _⟩ => rfl | ⟨1, _⟩ => rfl | ⟨2, _⟩ => rfl
  have er : ridx_main_v9 (ix3 b n c) k = ix2 k c := funext fun a => by match a with | ⟨0, _⟩ => rfl | ⟨1, _⟩ => rfl
  rw [el, er]
  exact congrArg (· * x5 (ix2 k c)) (congrFun (congrFun (v8_slab x0 x1 x2 x3 x4 b) n) k)

/-- The rectified read-out on every node. -/
theorem v10_slab (b : Fin 64) : slab (val_main_v10 (F := Ideal) x0 x1 x2 x3 x4 x5) b = agg zw (agg zw (slab x1 b) (feat (agg zw (slab x1 b) (feat (agg zw (slab x1 b) (feat (slab x0 b) (mat x2))) (mat x3))) (mat x4))) (mat x5) := by
  funext n c
  show max (val_main_v9 (F := Ideal) x0 x1 x2 x3 x4 x5 (ix3 b n c)) (val_main_call3_v0 (F := Ideal) (ix3 b n c)) = max ((feat (agg zw (slab x1 b) (feat (agg zw (slab x1 b) (feat (agg zw (slab x1 b) (feat (slab x0 b) (mat x2))) (mat x3))) (mat x4))) (mat x5)) n c) zw
  rw [val_main_call3_v0_apply, val_main_call3_cst_apply]
  exact congrArg (max · zw) (congrFun (congrFun (v9_slab x0 x1 x2 x3 x4 x5 b) n) c)

/-- THE REFERENCE IS THE SPECIFICATION: its last stage, the sum of the read-outs over the nodes from the zero word, is
    `result` of the argument arrays at every entry. -/
theorem ref_eq_result : val_main_v11 (F := Ideal) x0 x1 x2 x3 x4 x5 = result x0 x1 x2 x3 x4 x5 := by
  funext i
  obtain ⟨b, o, rfl⟩ : ∃ (b : Fin 64) (o : Fin 51), i = ix2 b o := ⟨i 0, i 1, eq_ix2 i⟩
  rw [val_main_v11_apply, val_main_cst_apply]
  show Ideal.ofBits .f32 0x00000000#32 + ∑ k : Fin 1024, val_main_v10 (F := Ideal) x0 x1 x2 x3 x4 x5 (idx_main_v11 (ix2 b o) k)
    = ∑ n : Fin 1024, (agg zw (agg zw (slab x1 b) (feat (agg zw (slab x1 b) (feat (agg zw (slab x1 b) (feat (slab x0 b) (mat x2))) (mat x3))) (mat x4))) (mat x5)) n o
  rw [Ideal.ofBits_zero_f32, zero_add]
  refine Finset.sum_congr rfl fun n _ => ?_
  have e : idx_main_v11 (ix2 b o) n = ix3 b n o := funext fun a => by match a with | ⟨0, _⟩ => rfl | ⟨1, _⟩ => rfl | ⟨2, _⟩ => rfl
  rw [e]
  exact congrFun (congrFun (v10_slab x0 x1 x2 x3 x4 x5 b) n) o

end Cert.ReferenceIdeal.RefValue

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibColumns.lean ====
/-
  Column-by-column readings of two-axis arrays, for any sizes.

  A reduction down the rows of an `n × k` array leaves one number per column: entry `c` of the result is the sum over
  the row coordinate `a` of the array at `(a, c)`. The lemmas below read such a sum at a column, in a kernel's spelling
  (a lane reduction from the zero word) and in the host's (a reduce with an initial value); turn a sum over a one-axis
  index set, or over the index set of a `1 × n` row, into the sum over the coordinate; and say that a one-bit flag
  widened to a 32-bit word and read as a signed integer is the same extended real as the flag read as an unsigned one.
-/
import Idealize.ShloMosaic.Lib.ValueIdx
import Idealize.ShloMosaic.PureOps.Ideal.Laws

noncomputable section

namespace Cert.Lib.Columns

open Idealize.ShloMosaic Idealize.ShloMosaic.ValueIdx

/-! ## Sums down a column -/

/-- The index of an `n × k` array over column `c` with the row `a` put back. -/
theorem lift_col {n k : ℕ} (h : (⟨2, ![n, k]⟩ : Shape).Reduces [0] ⟨1, ![k]⟩) (c : Fin k) (a : Fin n) :
    h.lift (ix1 c) a = ix2 a c := by
  funext ax; apply Fin.ext
  match ax with
  | ⟨0, _⟩ => rfl
  | ⟨1, _⟩ => rfl

/-- A lane reduction of an `n × k` array down its rows reads, at column `c`, the sum of that column. -/
theorem colSum_apply {n k : ℕ} {φ : FTy} (src : FVec Ideal ⟨2, ![n, k]⟩ φ) (acc : BitVec φ.bits)
    (h : (⟨2, ![n, k]⟩ : Shape).Reduces [0] ⟨1, ![k]⟩) (hφ : FKind.Formats φ) (hacc : acc = FKind.add.neutral φ hφ) (c : Fin k) :
    multiReduction .add [0] ⟨1, ![k]⟩ src acc h hφ hacc (ix1 c) = ∑ a : Fin n, src (ix2 a c) := by
  rw [Ideal.multiReduction_add_single]
  exact Finset.sum_congr rfl fun a _ => congrArg src (lift_col h c a)

/-- The same for an f32 lane sum from the zero word, with the accumulator's side condition spelt as a program prints it
    (the word equal to itself). -/
theorem colSum_f32_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = 0x00000000#32) (c : Fin k) :
    multiReduction .add [0] ⟨1, ![k]⟩ src 0x00000000#32 h hφ hacc (ix1 c) = ∑ a : Fin n, src (ix2 a c) :=
  colSum_apply src 0x00000000#32 h hφ hacc c

/-- The host's sum of an `n × k` array down its rows reads, at column `c`, the initial value plus the sum of that column. -/
theorem hostColSum_apply {n k : ℕ} {φ : FTy} {u : Shape} (x : FVec Ideal ⟨2, ![n, k]⟩ φ) (init : u.Idx → Ideal φ)
    (h' : (⟨2, ![n, k]⟩ : Shape).ReducesTo [0] ⟨1, ![k]⟩) (hu : 0 < u.numel)
    (h : (⟨2, ![n, k]⟩ : Shape).Reduces [0] ⟨1, ![k]⟩) (c : Fin k) :
    Host.reduceAdd x init h' hu (ix1 c) = init (Shape.Idx.first hu) + ∑ a : Fin n, x (ix2 a c) := by
  show Ideal.hostReduceAdd h' x (init (Shape.Idx.first hu)) (ix1 c) = _
  rw [Ideal.hostReduceAdd_single h' h]
  exact congrArg (init (Shape.Idx.first hu) + ·) (Finset.sum_congr rfl fun a _ => congrArg x (lift_col h c a))

/-! ## Sums over the index set of a vector and of a one-row matrix -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-- A sum over the index set of a `1 × n` row is the sum over the column coordinate, the row coordinate being `0`. -/
theorem sum_idx_1n {A : Type*} [AddCommMonoid A] {n : ℕ} (f : (⟨2, ![1, n]⟩ : Shape).Idx → A) :
    ∑ i, f i = ∑ c : Fin n, f (ix2 (0 : Fin 1) c) := by
  rw [sum_idx2]
  exact Fin.sum_univ_one _

/-! ## A one-bit flag as a number -/

/-- A one-bit flag widened by zeros to a 32-bit word and read as a signed integer is the flag read as an unsigned one:
    `0` or `1` either way. -/
theorem sitofp_setWidth_bit (b : BitVec 1) :
    FloatOps.sitofp (F := Ideal) .f32 (b.setWidth 32) = FloatOps.uitofp (F := Ideal) .f32 b := by
  have h : (b.setWidth 32).toInt = (b.toNat : ℤ) := by
    rcases BitVec.eq_zero_or_eq_one b with h | h <;> subst h <;> decide
  show (((b.setWidth 32).toInt : ℝ) : EReal) = ((b.toNat : ℝ) : EReal)
  rw [h, Int.cast_natCast]

end Cert.Lib.Columns

end
-- ==== Proof.GcnBody.lean ====
/-
  The kernel body's arithmetic, read as the specification's coordinate formulas.

  A matrix product into a zero accumulator is, entry by entry, the sum over the contracted coordinate of the products
  of the two operands' entries; the four products of the body (features by the first weight, adjacency by features,
  features by a square weight, features by the read-out weight) are read this way, each at its own literal sizes.
  A narrowing of the float format changes nothing on the extended reals, and the rectifier is the maximum with the
  zero word's number, so one graph's chain of products and rectifiers is the specification's `hidden` and its
  read-out summed over the nodes is `pooled`.
-/
import proofs.«137630_j11897059410630_2_alg».proof.Proof.Gen.KernelIdeal.Skeleton
import proofs.«137630_j11897059410630_2_alg».proof.Proof.GcnSpec
import proofs.«137630_j11897059410630_2_alg».proof.Proof.LibGram
import proofs.«137630_j11897059410630_2_alg».proof.Proof.LibColumns
import Idealize.ShloMosaic.Lib.ValueLayout

noncomputable section

namespace Cert.KernelIdeal.Body

open Cert.KernelIdeal Cert.KernelIdeal.Gen Idealize.ShloMosaic Idealize.ShloMosaic.ValueIdx Cert.Gcn
open scoped BigOperators

/-! ## The four matrix products, entry by entry -/

section Products
variable {φ₁ φ₂ : FTy}

theorem mat_matmul_in_l0 (j : S1024x128.Idx) (q : dot_S1024x64_S64x128_S1024x128_1_0_0_1_n_n.contr.Idx) : (dot_S1024x64_S64x128_S1024x128_1_0_0_1_n_n.lhsIdx j q 0).val = (j 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
theorem mat_matmul_in_r1 (j : S1024x128.Idx) (q : dot_S1024x64_S64x128_S1024x128_1_0_0_1_n_n.contr.Idx) : (dot_S1024x64_S64x128_S1024x128_1_0_0_1_n_n.rhsIdx j q 1).val = (j 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl
/-- Node features (1024 × 64) times the first weight (64 × 128), into zero. -/
theorem mat_matmul_in (L : FVec Ideal S1024x64 φ₁) (R : FVec Ideal S64x128 φ₂) :
    mat (matmul dot_S1024x64_S64x128_S1024x128_1_0_0_1_n_n none L R (constant S1024x128 .f32 0x00000000#32)) = feat (mat L) (mat R) := by
  funext n c
  show matmul dot_S1024x64_S64x128_S1024x128_1_0_0_1_n_n none L R (constant S1024x128 .f32 0x00000000#32) (ix2 n c) = ∑ k : Fin 64, L (ix2 n k) * R (ix2 k c)
  refine Cert.Lib.Gram.matmul_zero_single_apply dot_S1024x64_S64x128_S1024x128_1_0_0_1_n_n 64 rfl rfl none L R (ix2 n c)
    (fun k => ix2 n k) (fun k => ix2 k c) (fun k => ?_) (fun k => ?_)
  · have hk := contrEquiv1_symm_val dot_S1024x64_S64x128_S1024x128_1_0_0_1_n_n 64 rfl rfl k
    funext a; apply Fin.ext
    match a with
    | ⟨0, _⟩ => exact mat_matmul_in_l0 _ _
    | ⟨1, _⟩ => exact (dot_S1024x64_S64x128_S1024x128_1_0_0_1_n_n.lhsIdx_val_of_single rfl _ _).trans hk
  · have hk := contrEquiv1_symm_val dot_S1024x64_S64x128_S1024x128_1_0_0_1_n_n 64 rfl rfl k
    funext a; apply Fin.ext
    match a with
    | ⟨0, _⟩ => exact (dot_S1024x64_S64x128_S1024x128_1_0_0_1_n_n.rhsIdx_val_of_single rfl _ _).trans hk
    | ⟨1, _⟩ => exact mat_matmul_in_r1 _ _

theorem mat_matmul_adj_l0 (j : S1024x128.Idx) (q : dot_S1024x1024_S1024x128_S1024x128_1_0_0_1_n_n.contr.Idx) : (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem mat_matmul_adj_r1 (j : S1024x128.Idx) (q : dot_S1024x1024_S1024x128_S1024x128_1_0_0_1_n_n.contr.Idx) : (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl
/-- The adjacency (1024 × 1024) times node features (1024 × 128), into zero. -/
theorem mat_matmul_adj (L : FVec Ideal S1024x1024 φ₁) (R : FVec Ideal S1024x128 φ₂) :
    mat (matmul dot_S1024x1024_S1024x128_S1024x128_1_0_0_1_n_n none L R (constant S1024x128 .f32 0x00000000#32)) = feat (mat L) (mat R) := by
  funext n c
  show matmul dot_S1024x1024_S1024x128_S1024x128_1_0_0_1_n_n none L R (constant S1024x128 .f32 0x00000000#32) (ix2 n c) = ∑ k : Fin 1024, L (ix2 n k) * R (ix2 k c)
  refine Cert.Lib.Gram.matmul_zero_single_apply dot_S1024x1024_S1024x128_S1024x128_1_0_0_1_n_n 1024 rfl rfl none L R (ix2 n c)
    (fun k => ix2 n k) (fun k => ix2 k c) (fun k => ?_) (fun k => ?_)
  · have hk := contrEquiv1_symm_val dot_S1024x1024_S1024x128_S1024x128_1_0_0_1_n_n 1024 rfl rfl k
    funext a; apply Fin.ext
    match a with
    | ⟨0, _⟩ => exact mat_matmul_adj_l0 _ _
    | ⟨1, _⟩ => exact (dot_S1024x1024_S1024x128_S1024x128_1_0_0_1_n_n.lhsIdx_val_of_single rfl _ _).trans hk
  · have hk := contrEquiv1_symm_val dot_S1024x1024_S1024x128_S1024x128_1_0_0_1_n_n 1024 rfl rfl k
    funext a; apply Fin.ext
    match a with
    | ⟨0, _⟩ => exact (dot_S1024x1024_S1024x128_S1024x128_1_0_0_1_n_n.rhsIdx_val_of_single rfl _ _).trans hk
    | ⟨1, _⟩ => exact mat_matmul_adj_r1 _ _

theorem mat_matmul_sq_l0 (j : S1024x128.Idx) (q : dot_S1024x128_S128x128_S1024x128_1_0_0_1_n_n.contr.Idx) : (dot_S1024x128_S128x128_S1024x128_1_0_0_1_n_n.lhsIdx j q 0).val = (j 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem mat_matmul_sq_r1 (j : S1024x128.Idx) (q : dot_S1024x128_S128x128_S1024x128_1_0_0_1_n_n.contr.Idx) : (dot_S1024x128_S128x128_S1024x128_1_0_0_1_n_n.rhsIdx j q 1).val = (j 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
/-- Node features (1024 × 128) times a square weight (128 × 128), into zero. -/
theorem mat_matmul_sq (L : FVec Ideal S1024x128 φ₁) (R : FVec Ideal S128x128 φ₂) :
    mat (matmul dot_S1024x128_S128x128_S1024x128_1_0_0_1_n_n none L R (constant S1024x128 .f32 0x00000000#32)) = feat (mat L) (mat R) := by
  funext n c
  show matmul dot_S1024x128_S128x128_S1024x128_1_0_0_1_n_n none L R (constant S1024x128 .f32 0x00000000#32) (ix2 n c) = ∑ k : Fin 128, L (ix2 n k) * R (ix2 k c)
  refine Cert.Lib.Gram.matmul_zero_single_apply dot_S1024x128_S128x128_S1024x128_1_0_0_1_n_n 128 rfl rfl none L R (ix2 n c)
    (fun k => ix2 n k) (fun k => ix2 k c) (fun k => ?_) (fun k => ?_)
  · have hk := contrEquiv1_symm_val dot_S1024x128_S128x128_S1024x128_1_0_0_1_n_n 128 rfl rfl k
    funext a; apply Fin.ext
    match a with
    | ⟨0, _⟩ => exact mat_matmul_sq_l0 _ _
    | ⟨1, _⟩ => exact (dot_S1024x128_S128x128_S1024x128_1_0_0_1_n_n.lhsIdx_val_of_single rfl _ _).trans hk
  · have hk := contrEquiv1_symm_val dot_S1024x128_S128x128_S1024x128_1_0_0_1_n_n 128 rfl rfl k
    funext a; apply Fin.ext
    match a with
    | ⟨0, _⟩ => exact (dot_S1024x128_S128x128_S1024x128_1_0_0_1_n_n.rhsIdx_val_of_single rfl _ _).trans hk
    | ⟨1, _⟩ => exact mat_matmul_sq_r1 _ _

theorem mat_matmul_out_l0 (j : S1024x51.Idx) (q : dot_S1024x128_S128x51_S1024x51_1_0_0_1_n_n.contr.Idx) : (dot_S1024x128_S128x51_S1024x51_1_0_0_1_n_n.lhsIdx j q 0).val = (j 0).val := by
  unfold DotDims.lhsIdx
  rw [dif_neg (show ¬(0 : Fin S1024x128.rank) ∈ dot_S1024x128_S128x51_S1024x51_1_0_0_1_n_n.lhsBatch by decide), dif_pos (show (0 : Fin S1024x128.rank) ∈ dot_S1024x128_S128x51_S1024x51_1_0_0_1_n_n.lhsNonContracting by decide)]
  rfl
theorem mat_matmul_out_r1 (j : S1024x51.Idx) (q : dot_S1024x128_S128x51_S1024x51_1_0_0_1_n_n.contr.Idx) : (dot_S1024x128_S128x51_S1024x51_1_0_0_1_n_n.rhsIdx j q 1).val = (j 1).val := by
  unfold DotDims.rhsIdx
  rw [dif_neg (show ¬(1 : Fin S128x51.rank) ∈ dot_S1024x128_S128x51_S1024x51_1_0_0_1_n_n.rhsBatch by decide), dif_pos (show (1 : Fin S128x51.rank) ∈ dot_S1024x128_S128x51_S1024x51_1_0_0_1_n_n.rhsNonContracting by decide)]
  rfl
/-- Node features (1024 × 128) times the read-out weight (128 × 51), into zero. -/
theorem mat_matmul_out (L : FVec Ideal S1024x128 φ₁) (R : FVec Ideal S128x51 φ₂) :
    mat (matmul dot_S1024x128_S128x51_S1024x51_1_0_0_1_n_n none L R (constant S1024x51 .f32 0x00000000#32)) = feat (mat L) (mat R) := by
  funext n c
  show matmul dot_S1024x128_S128x51_S1024x51_1_0_0_1_n_n none L R (constant S1024x51 .f32 0x00000000#32) (ix2 n c) = ∑ k : Fin 128, L (ix2 n k) * R (ix2 k c)
  refine Cert.Lib.Gram.matmul_zero_single_apply dot_S1024x128_S128x51_S1024x51_1_0_0_1_n_n 128 rfl rfl none L R (ix2 n c)
    (fun k => ix2 n k) (fun k => ix2 k c) (fun k => ?_) (fun k => ?_)
  · have hk := contrEquiv1_symm_val dot_S1024x128_S128x51_S1024x51_1_0_0_1_n_n 128 rfl rfl k
    funext a; apply Fin.ext
    match a with
    | ⟨0, _⟩ => exact mat_matmul_out_l0 _ _
    | ⟨1, _⟩ => exact (dot_S1024x128_S128x51_S1024x51_1_0_0_1_n_n.lhsIdx_val_of_single rfl _ _).trans hk
  · have hk := contrEquiv1_symm_val dot_S1024x128_S128x51_S1024x51_1_0_0_1_n_n 128 rfl rfl k
    funext a; apply Fin.ext
    match a with
    | ⟨0, _⟩ => exact (dot_S1024x128_S128x51_S1024x51_1_0_0_1_n_n.rhsIdx_val_of_single rfl _ _).trans hk
    | ⟨1, _⟩ => exact mat_matmul_out_r1 _ _

end Products

/-! ## One graph through the body -/

section Graph

/-- The rectified adjacency product, kept in the narrow format: entry by entry the specification's `agg`. -/
theorem mat_conv (A : FVec Ideal S1024x1024 .bf16) (y : FVec Ideal S1024x128 .f32) (h h' : FTy.bits .bf16 < FTy.bits .f32) :
    mat (truncf .bf16 (maximumf (matmul dot_S1024x1024_S1024x128_S1024x128_1_0_0_1_n_n none A (truncf .bf16 y h) (constant S1024x128 .f32 0x00000000#32))
      (broadcast S1024x128 (FloatOps.ofBits (F := Ideal) .f32 0x00000000#32))) h' : FVec Ideal S1024x128 .bf16) = agg zw (mat A) (mat y) := by
  funext n c
  show max (mat (matmul dot_S1024x1024_S1024x128_S1024x128_1_0_0_1_n_n none A (truncf .bf16 y h) (constant S1024x128 .f32 0x00000000#32)) n c) zw
    = max (feat (mat A) (mat y) n c) zw
  rw [mat_matmul_adj]
  rfl

/-- One graph's slice of a stack, with its leading unit axis dropped and the format narrowed, is that slice. -/
theorem mat_squeeze_adj (v : Vec Ideal S1x1024x1024 .f32) (hc : S1x1024x1024.ShapeCasts S1024x1024) (h : FTy.bits .bf16 < FTy.bits .f32) :
    mat (truncf .bf16 (shapeCast S1024x1024 v hc) h : FVec Ideal S1024x1024 .bf16) = slab v 0 :=
  funext fun n => funext fun m => shapeCast_1ab_ab_apply v hc n m
theorem mat_squeeze_feat (v : Vec Ideal S1x1024x64 .f32) (hc : S1x1024x64.ShapeCasts S1024x64) (h : FTy.bits .bf16 < FTy.bits .f32) :
    mat (truncf .bf16 (shapeCast S1024x64 v hc) h : FVec Ideal S1024x64 .bf16) = slab v 0 :=
  funext fun n => funext fun k => shapeCast_1ab_ab_apply v hc n k

/-- The first graph of a block: its read-out before the rectifier is the specification's `feat` of `hidden`. -/
theorem mat_pay6 (v0 : Vec Ideal S64x128 .f32) (v2 v4 : Vec Ideal S128x128 .f32) (v6 : Vec Ideal S128x51 .f32)
    (v9 : Vec Ideal S1x1024x1024 .f32) (v13 : Vec Ideal S1x1024x64 .f32) :
    mat (k0_pay6 (F := Ideal) v0 v2 v4 v6 v9 v13)
      = feat (hidden zw (slab v9 0) (slab v13 0) (mat v0) (mat v2) (mat v4)) (mat v6) := by
  unfold k0_pay6 k0_pay2 k0_pay3 k0_pay4 k0_pay5
  dsimp only
  rw [mat_matmul_out, mat_conv, mat_matmul_sq, mat_conv, mat_matmul_sq, mat_conv, mat_matmul_in, mat_squeeze_adj, mat_squeeze_feat]
  rfl

/-- The column sums of the rectified read-out, stored as a 1 × 1 × 51 piece: at `(·, ·, o)` the graph's `pooled`. -/
theorem pay7_pay6_apply (v0 : Vec Ideal S64x128 .f32) (v2 v4 : Vec Ideal S128x128 .f32) (v6 : Vec Ideal S128x51 .f32)
    (v9 : Vec Ideal S1x1024x1024 .f32) (v13 : Vec Ideal S1x1024x64 .f32) (u0 u1 : Fin 1) (o : Fin 51) :
    k0_pay7 (F := Ideal) (k0_pay6 v0 v2 v4 v6 v9 v13) (Scalar.ofBits .f32 0x00000000#32) (ix3 u0 u1 o)
      = pooled zw (slab v9 0) (slab v13 0) (mat v0) (mat v2) (mat v4) (mat v6) o := by
  unfold k0_pay7
  dsimp only
  refine (shapeCast_ab_1ab_apply _ _ u0 u1 o).trans ?_
  refine (shapeCast_a_1a_apply _ _ u1 o).trans ?_
  refine (Cert.Lib.Columns.colSum_f32_apply _ _ _ _ o).trans ?_
  refine Finset.sum_congr rfl fun n _ => ?_
  show max (mat (k0_pay6 (F := Ideal) v0 v2 v4 v6 v9 v13) n o) zw = _
  rw [mat_pay6]
  rfl

/-- The second graph of a block, whose weights arrive already narrowed: the same chain and the same column sums. -/
theorem pay1_pay8_apply (v0 : Vec Ideal S64x128 .f32) (v2 v4 : Vec Ideal S128x128 .f32) (v6 : Vec Ideal S128x51 .f32)
    (v44 : Vec Ideal S1x1024x1024 .f32) (v48 : Vec Ideal S1x1024x64 .f32) (u0 u1 : Fin 1) (o : Fin 51) :
    k0_pay1 (F := Ideal) (k0_pay8 (k0_pay2 v0) (k0_pay3 v2) (k0_pay4 v4) (k0_pay5 v6) v44 v48) (ix3 u0 u1 o)
      = pooled zw (slab v44 0) (slab v48 0) (mat v0) (mat v2) (mat v4) (mat v6) o := by
  unfold k0_pay1 k0_pay8 k0_pay2 k0_pay3 k0_pay4 k0_pay5
  dsimp only
  refine (shapeCast_ab_1ab_apply _ _ u0 u1 o).trans ?_
  refine (shapeCast_a_1a_apply _ _ u1 o).trans ?_
  refine (Cert.Lib.Columns.colSum_f32_apply _ _ _ _ o).trans ?_
  refine Finset.sum_congr rfl fun n _ => ?_
  refine (maximumf_apply _ _ (ix2 n o)).trans ?_
  refine congrArg (max · zw) ?_
  refine (congrFun (congrFun (mat_matmul_out _ _) n) o).trans ?_
  rw [mat_conv, mat_matmul_sq, mat_conv, mat_matmul_sq, mat_conv, mat_matmul_in, mat_squeeze_adj, mat_squeeze_feat]
  rfl

end Graph

end Cert.KernelIdeal.Body

end
-- ==== Proof.GcnBlock.lean ====
/-
  What one grid point leaves in its output block.

  A grid point holds two graphs: rows 0 and 1 of its adjacency block (2 × 1024 × 1024) and of its feature block
  (2 × 1024 × 64), and the four whole weight matrices. The body writes the 2 × 1 × 51 output block in two pieces, one
  per graph, each the 51 read-outs of that graph. So the block is one function of the six input blocks: entry
  `(r, ·, o)` is the specification's `pooled` of graph `r`'s adjacency and features, at read-out `o`.
-/
import proofs.«137630_j11897059410630_2_alg».proof.Proof.Gen.KernelIdeal.Frame
import proofs.«137630_j11897059410630_2_alg».proof.Proof.GcnBody
import Idealize.ShloMosaic.Lib.Pipeline.Value

noncomputable section

namespace Cert.KernelIdeal.Block

open Cert.KernelIdeal Cert.KernelIdeal.Gen Cert.KernelIdeal.Body Idealize.ShloMosaic Idealize.ShloMosaic.ValueIdx Cert.Gcn
open scoped BigOperators

/-- The output block as a function of the six input blocks: row `r` holds the read-outs of the block's graph `r`. -/
def blockFn (X0 : Vec Ideal S2x1024x1024 .f32) (X1 : Vec Ideal S2x1024x64 .f32) (X2 : Vec Ideal S64x128 .f32)
    (X3 X4 : Vec Ideal S128x128 .f32) (X5 : Vec Ideal S128x51 .f32) : Vec Ideal S2x1x51 .f32 :=
  fun y => pooled zw (slab X0 (y 0)) (slab X1 (y 0)) (mat X2) (mat X3) (mat X4) (mat X5) (y 2)

theorem hz2 : (![0, 0] : Fin 2 → Nat) = fun _ => 0 := funext fun a => by fin_cases a <;> rfl

/-- Row `r` of the adjacency block, loaded as a 1 × 1024 × 1024 slab, is graph `r`'s adjacency. -/
theorem slab_ld_adj0 (X0 : Vec Ideal S2x1024x1024 .f32) :
    slab (View.ld X0 r0_3 : Vec Ideal S1x1024x1024 .f32) 0 = slab X0 0 :=
  funext fun n => funext fun k => congrArg X0 (funext fun a => Fin.ext (by
    match a with
    | ⟨0, _⟩ => rfl
    | ⟨1, _⟩ => show 0 + 1 * n.val = n.val; omega
    | ⟨2, _⟩ => show 0 + 1 * k.val = k.val; omega))
theorem slab_ld_adj1 (X0 : Vec Ideal S2x1024x1024 .f32) :
    slab (View.ld X0 r0_6 : Vec Ideal S1x1024x1024 .f32) 0 = slab X0 1 :=
  funext fun n => funext fun k => congrArg X0 (funext fun a => Fin.ext (by
    match a with
    | ⟨0, _⟩ => rfl
    | ⟨1, _⟩ => show 0 + 1 * n.val = n.val; omega
    | ⟨2, _⟩ => show 0 + 1 * k.val = k.val; omega))
/-- Row `r` of the feature block likewise. -/
theorem slab_ld_feat0 (X1 : Vec Ideal S2x1024x64 .f32) :
    slab (View.ld X1 r0_4 : Vec Ideal S1x1024x64 .f32) 0 = slab X1 0 :=
  funext fun n => funext fun k => congrArg X1 (funext fun a => Fin.ext (by
    match a with
    | ⟨0, _⟩ => rfl
    | ⟨1, _⟩ => show 0 + 1 * n.val = n.val; omega
    | ⟨2, _⟩ => show 0 + 1 * k.val = k.val; omega))
theorem slab_ld_feat1 (X1 : Vec Ideal S2x1024x64 .f32) :
    slab (View.ld X1 r0_7 : Vec Ideal S1x1024x64 .f32) 0 = slab X1 1 :=
  funext fun n => funext fun k => congrArg X1 (funext fun a => Fin.ext (by
    match a with
    | ⟨0, _⟩ => rfl
    | ⟨1, _⟩ => show 0 + 1 * n.val = n.val; omega
    | ⟨2, _⟩ => show 0 + 1 * k.val = k.val; omega))

/-- Where the two stored pieces sit in the block: piece `r`'s entry `(·, ·, o)` is the block's `(r, 0, o)`. -/
theorem emb_row0 (u0 u1 : Fin 1) (o : Fin 51) :
    r0_5.emb (ix3 u0 u1 o : S1x1x51.Idx) = (ix3 (0 : Fin 2) (0 : Fin 1) o : S2x1x51.Idx) := by
  funext a; apply Fin.ext
  match a with
  | ⟨0, _⟩ => show 0 + 1 * u0.val = 0; omega
  | ⟨1, _⟩ => show 0 + 1 * u1.val = 0; omega
  | ⟨2, _⟩ => show 0 + 1 * o.val = o.val; omega
theorem emb_row1 (u0 u1 : Fin 1) (o : Fin 51) :
    r0_8.emb (ix3 u0 u1 o : S1x1x51.Idx) = (ix3 (1 : Fin 2) (0 : Fin 1) o : S2x1x51.Idx) := by
  funext a; apply Fin.ext
  match a with
  | ⟨0, _⟩ => show 1 + 1 * u0.val = 1; omega
  | ⟨1, _⟩ => show 0 + 1 * u1.val = 0; omega
  | ⟨2, _⟩ => show 0 + 1 * o.val = o.val; omega

/-- WHAT THE BODY LEAVES in the output block is `blockFn` of the input blocks: each of its two pieces is the piece of
    `blockFn` under its rectangle, and the two rectangles cover the block. -/
theorem out_eq (X0 : Vec Ideal S2x1024x1024 .f32) (X1 : Vec Ideal S2x1024x64 .f32) (X2 : Vec Ideal S64x128 .f32)
    (X3 X4 : Vec Ideal S128x128 .f32) (X5 : Vec Ideal S128x51 .f32) :
    out0_6 (F := Ideal) X0 X1 X2 X3 X4 X5 = blockFn X0 X1 X2 X3 X4 X5 := by
  funext y
  unfold out0_6
  refine View.canon_apply_of_pieces (Val := Elt Ideal) (blockFn X0 X1 X2 X3 X4 X5) _ ?_ y (cover0_6 _ _ y)
  intro p hp
  rcases List.mem_cons.mp hp with rfl | hp
  · intro x
    obtain ⟨u0, u1, o, rfl⟩ : ∃ (u0 u1 : Fin 1) (o : Fin 51), x = (ix3 u0 u1 o : S1x1x51.Idx) :=
      ⟨x 0, x 1, x 2, eq_ix3 (n0 := 1) (n1 := 1) (n2 := 51) x⟩
    show k0_pay1 (F := Ideal) (k0_pay8 (k0_pay2 (View.ld X2 r0_0)) (k0_pay3 (View.ld X3 r0_1)) (k0_pay4 (View.ld X4 r0_1))
        (k0_pay5 (View.ld X5 r0_2)) (View.ld X0 r0_6) (View.ld X1 r0_7)) (ix3 u0 u1 o)
      = blockFn X0 X1 X2 X3 X4 X5 (r0_8.emb (ix3 u0 u1 o : S1x1x51.Idx))
    rw [emb_row1, pay1_pay8_apply, slab_ld_adj1, slab_ld_feat1]
    simp only [View.ld_unit_zero (S := S64x128) hz2, View.ld_unit_zero (S := S128x128) hz2, View.ld_unit_zero (S := S128x51) hz2]
    rfl
  · obtain rfl := List.mem_singleton.mp hp
    intro x
    obtain ⟨u0, u1, o, rfl⟩ : ∃ (u0 u1 : Fin 1) (o : Fin 51), x = (ix3 u0 u1 o : S1x1x51.Idx) :=
      ⟨x 0, x 1, x 2, eq_ix3 (n0 := 1) (n1 := 1) (n2 := 51) x⟩
    show k0_pay7 (F := Ideal) (k0_pay6 (View.ld X2 r0_0) (View.ld X3 r0_1) (View.ld X4 r0_1) (View.ld X5 r0_2)
        (View.ld X0 r0_3) (View.ld X1 r0_4)) (Scalar.ofBits .f32 0x00000000#32) (ix3 u0 u1 o)
      = blockFn X0 X1 X2 X3 X4 X5 (r0_5.emb (ix3 u0 u1 o : S1x1x51.Idx))
    rw [emb_row0, pay7_pay6_apply, slab_ld_adj0, slab_ld_feat0]
    simp only [View.ld_unit_zero (S := S64x128) hz2, View.ld_unit_zero (S := S128x128) hz2, View.ld_unit_zero (S := S128x51) hz2]
    rfl

end Cert.KernelIdeal.Block

end
-- ==== Proof.GcnArray.lean ====
/-
  From the grid's blocks to the whole output array, and through the reshape after the region.

  Grid point `t` holds graphs `2t` and `2t + 1`: its adjacency and feature blocks are those two graphs' slabs of the
  argument arrays, the weight blocks are the whole weight arrays at every point, and its output block is rows `2t`,
  `2t + 1` of the 64 × 1 × 51 output array. So every point writes back the block of ONE function of the arguments — the
  read-outs of graph `i 0` at entry `(i 0, 0, i 2)` — the 32 blocks cover the array, and the array ends holding that
  function. The reshape to 64 × 51 after the region keeps the row-major position, so entry `(b, o)` of the result is
  entry `(b, 0, o)` of that array: the specification's `result`.
-/
import proofs.«137630_j11897059410630_2_alg».proof.Proof.Gen.KernelIdeal.Frame
import proofs.«137630_j11897059410630_2_alg».proof.Proof.GcnBlock
import Idealize.ShloMosaic.Lib.Pipeline.Value
import Idealize.ShloMosaic.Lib.StableHlo.Run
import Idealize.ShloMosaic.Lib.ValueLayout

set_option maxRecDepth 16384

noncomputable section

namespace Cert.KernelIdeal.Arr

open Cert.KernelIdeal Cert.KernelIdeal.Gen Cert.KernelIdeal.Block Idealize.ShloMosaic Idealize.ShloMosaic.TcCoe Idealize.ShloMosaic.ValueIdx Cert.Gcn
open Idealize.SL.Sem
open Idealize.ShloMosaic.Pipeline (Dat)
open scoped BigOperators

variable (m : (ℓ : Loc nD τ sig) → Buf (Elt Ideal) ℓ) (ρ : Dev nD → PrngReg)

/-- The 64 × 1 × 51 output array as a function of the argument arrays: entry `(b, ·, o)` is graph `b`'s read-out `o`. -/
def outArr (x : S64x1024x64.Idx → EReal) (a : S64x1024x1024.Idx → EReal) (W0 : S64x128.Idx → EReal)
    (W1 W2 : S128x128.Idx → EReal) (Wd : S128x51.Idx → EReal) : S64x1x51.Idx → EReal :=
  fun i => pooled zw (slab a (i 0)) (slab x (i 0)) (mat W0) (mat W1) (mat W2) (mat Wd) (i 2)

/-- The printed index maps, decided over the 32 grid points: the adjacency's and the features' blocks move with the
    output's block along the graph axis and sit at zero elsewhere; the weights' blocks never move. -/
theorem idx_facts : ∀ t : Fin cfg0.N,
    win0_0.index t (0 : Fin 3) = win0_6.index t (0 : Fin 3) ∧ win0_0.index t (1 : Fin 3) = 0 ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 3) = 0 ∧ win0_6.index t (2 : Fin 3) = 0 ∧ win0_6.index t (0 : Fin 3) < 32 :=
  (by decide +kernel : ∀ t : Fin grid0.N, _)

/-- Every pair of rows of the output array is some point's block. -/
theorem idx_onto : ∀ q : Fin 32, ∃ t : Fin cfg0.N, win0_6.index t (0 : Fin 3) = q.val :=
  (by decide +kernel : ∀ q : Fin 32, ∃ t : Fin grid0.N, win0_6.index t (0 : Fin 3) = q.val)

/-- Row `r` of the adjacency block at point `t` is the adjacency of graph `2 · (block index) + r`. -/
theorem iblk_adj (c : Dev nD) (t : Fin cfg0.N) (r : Fin 2) (g : Fin 64) (hg : g.val = win0_6.index t (0 : Fin 3) * 2 + r.val) :
    slab (iblk m c 0 t : Vec Ideal S2x1024x1024 .f32) r = slab (V m c main_arg1 : S64x1024x1024.Idx → EReal) g := by
  obtain ⟨e00, e01, e02, e10, e11, e12, -⟩ := idx_facts t
  funext n k
  show iblk m c 0 t (ix3 r n k) = V m c main_arg1 (ix3 g n k)
  unfold iblk
  rw [View.read_apply]
  show V m c main_arg1 _ = V m c main_arg1 _
  congr 1
  funext a; apply Fin.ext
  match a with
  | ⟨0, _⟩ => show win0_0.index t (0 : Fin 3) * 2 + 1 * r.val = g.val; omega
  | ⟨1, _⟩ => show win0_0.index t (1 : Fin 3) * 1024 + 1 * n.val = n.val; omega
  | ⟨2, _⟩ => show win0_0.index t (2 : Fin 3) * 1024 + 1 * k.val = k.val; omega

/-- Row `r` of the feature block likewise. -/
theorem iblk_feat (c : Dev nD) (t : Fin cfg0.N) (r : Fin 2) (g : Fin 64) (hg : g.val = win0_6.index t (0 : Fin 3) * 2 + r.val) :
    slab (iblk m c 1 t : Vec Ideal S2x1024x64 .f32) r = slab (V m c main_arg0 : S64x1024x64.Idx → EReal) g := by
  obtain ⟨e00, e01, e02, e10, e11, e12, -⟩ := idx_facts t
  funext n k
  show iblk m c 1 t (ix3 r n k) = V m c main_arg0 (ix3 g n k)
  unfold iblk
  rw [View.read_apply]
  show V m c main_arg0 _ = V m c main_arg0 _
  congr 1
  funext a; apply Fin.ext
  match a with
  | ⟨0, _⟩ => show win0_1.index t (0 : Fin 3) * 2 + 1 * r.val = g.val; omega
  | ⟨1, _⟩ => show win0_1.index t (1 : Fin 3) * 1024 + 1 * n.val = n.val; omega
  | ⟨2, _⟩ => show win0_1.index t (2 : Fin 3) * 64 + 1 * k.val = k.val; omega

/-- The first weight's block is the whole weight, at every point. -/
theorem iblk_w0 (c : Dev nD) (t : Fin cfg0.N) :
    mat (iblk m c 2 t : Vec Ideal S64x128 .f32) = mat (V m c main_arg2 : S64x128.Idx → EReal) := by
  obtain ⟨-, -, -, -, -, -, e20, e21, e30, e31, e40, e41, e50, e51, -⟩ := idx_facts t
  funext k q
  show iblk m c 2 t (ix2 k q) = V m c main_arg2 (ix2 k q)
  unfold iblk
  rw [View.read_apply]
  show V m c main_arg2 _ = V m c main_arg2 _
  congr 1
  funext a; apply Fin.ext
  match a with
  | ⟨0, _⟩ => show win0_2.index t (0 : Fin 2) * 64 + 1 * k.val = k.val; omega
  | ⟨1, _⟩ => show win0_2.index t (1 : Fin 2) * 128 + 1 * q.val = q.val; omega

/-- The second weight's block is the whole weight. -/
theorem iblk_w1 (c : Dev nD) (t : Fin cfg0.N) :
    mat (iblk m c 3 t : Vec Ideal S128x128 .f32) = mat (V m c main_arg3 : S128x128.Idx → EReal) := by
  obtain ⟨-, -, -, -, -, -, e20, e21, e30, e31, e40, e41, e50, e51, -⟩ := idx_facts t
  funext k q
  show iblk m c 3 t (ix2 k q) = V m c main_arg3 (ix2 k q)
  unfold iblk
  rw [View.read_apply]
  show V m c main_arg3 _ = V m c main_arg3 _
  congr 1
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The third weight's block is the whole weight. -/
theorem iblk_w2 (c : Dev nD) (t : Fin cfg0.N) :
    mat (iblk m c 4 t : Vec Ideal S128x128 .f32) = mat (V m c main_arg4 : S128x128.Idx → EReal) := by
  obtain ⟨-, -, -, -, -, -, e20, e21, e30, e31, e40, e41, e50, e51, -⟩ := idx_facts t
  funext k q
  show iblk m c 4 t (ix2 k q) = V m c main_arg4 (ix2 k q)
  unfold iblk
  rw [View.read_apply]
  show V m c main_arg4 _ = V m c main_arg4 _
  congr 1
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- The read-out weight's block is the whole weight. -/
theorem iblk_wd (c : Dev nD) (t : Fin cfg0.N) :
    mat (iblk m c 5 t : Vec Ideal S128x51 .f32) = mat (V m c main_arg5 : S128x51.Idx → EReal) := by
  obtain ⟨-, -, -, -, -, -, e20, e21, e30, e31, e40, e41, e50, e51, -⟩ := idx_facts t
  funext k q
  show iblk m c 5 t (ix2 k q) = V m c main_arg5 (ix2 k q)
  unfold iblk
  rw [View.read_apply]
  show V m c main_arg5 _ = V m c main_arg5 _
  congr 1
  funext a; apply Fin.ext
  match a with
  | ⟨0, _⟩ => show win0_5.index t (0 : Fin 2) * 128 + 1 * k.val = k.val; omega
  | ⟨1, _⟩ => show win0_5.index t (1 : Fin 2) * 51 + 1 * q.val = q.val; omega

/-- WHAT POINT `t` WRITES BACK is block `t` of `outArr` of the argument arrays as the region finds them. -/
theorem flushed_eq (c : Dev nD) (t : Fin cfg0.N) :
    (dats m 0 c).flushed 6 t = ((cfg0.win 6).blk t).view.read (Elt Ideal)
      (outArr (V m c main_arg0) (V m c main_arg1) (V m c main_arg2) (V m c main_arg3) (V m c main_arg4) (V m c main_arg5)) := by
  show (cfg0.win 6).cut (grid0.coords t) ((dats m 0 c).after 6 t) = _
  rw [after0_6, out_eq (iblk m c 0 t) (iblk m c 1 t) (iblk m c 2 t) (iblk m c 3 t) (iblk m c 4 t) (iblk m c 5 t)]
  obtain ⟨-, -, -, -, -, -, -, -, -, -, -, -, -, -, e61, e62, e6lt⟩ := idx_facts t
  funext j
  obtain ⟨r, u, o, rfl⟩ : ∃ (r : Fin 2) (u : Fin 1) (o : Fin 51), j = (ix3 r u o : S2x1x51.Idx) :=
    ⟨j 0, j 1, j 2, eq_ix3 (n0 := 2) (n1 := 1) (n2 := 51) j⟩
  obtain ⟨g, hg⟩ : ∃ g : Fin 64, g.val = win0_6.index t (0 : Fin 3) * 2 + r.val := ⟨⟨_, by omega⟩, rfl⟩
  have hE : ((cfg0.win 6).blk t).view.emb (ix3 r u o : S2x1x51.Idx) = (ix3 g (0 : Fin 1) o : S64x1x51.Idx) := by
    funext a; apply Fin.ext
    match a with
    | ⟨0, _⟩ => show win0_6.index t (0 : Fin 3) * 2 + 1 * r.val = g.val; omega
    | ⟨1, _⟩ => show win0_6.index t (1 : Fin 3) * 1 + 1 * u.val = 0; omega
    | ⟨2, _⟩ => show win0_6.index t (2 : Fin 3) * 51 + 1 * o.val = o.val; omega
  rw [View.read_apply, hE]
  show pooled zw (slab (iblk m c 0 t : Vec Ideal S2x1024x1024 .f32) r) (slab (iblk m c 1 t : Vec Ideal S2x1024x64 .f32) r)
      (mat (iblk m c 2 t : Vec Ideal S64x128 .f32)) (mat (iblk m c 3 t : Vec Ideal S128x128 .f32))
      (mat (iblk m c 4 t : Vec Ideal S128x128 .f32)) (mat (iblk m c 5 t : Vec Ideal S128x51 .f32)) o
    = pooled zw (slab (V m c main_arg1 : S64x1024x1024.Idx → EReal) g) (slab (V m c main_arg0 : S64x1024x64.Idx → EReal) g)
      (mat (V m c main_arg2 : S64x128.Idx → EReal)) (mat (V m c main_arg3 : S128x128.Idx → EReal))
      (mat (V m c main_arg4 : S128x128.Idx → EReal)) (mat (V m c main_arg5 : S128x51.Idx → EReal)) o
  rw [iblk_adj m c t r g hg, iblk_feat m c t r g hg, iblk_w0, iblk_w1, iblk_w2, iblk_wd]

/-- An index of the output array is in point `t`'s block iff each coordinate is in the block's range on its axis. -/
theorem mem_blk (t : Fin cfg0.N) (i : S64x1x51.Idx) :
    i ∈ ((cfg0.win 6).blk t).view.set ↔ ∀ a : Fin 3, win0_6.index t a * S2x1x51.size a ≤ (i a).val
      ∧ (i a).val < win0_6.index t a * S2x1x51.size a + S2x1x51.size a := by
  show i ∈ ((View.whole main_v0).slice (win0_6.rect t)).set ↔ _
  rw [View.set_slice_whole, Rect.mem_set_unit]
  exact Iff.rfl

/-- The 32 blocks cover the output array: row `b` is in the block of the point whose block index is `b / 2`. -/
theorem covered (i : S64x1x51.Idx) : ∃ t : Fin cfg0.N, (cfg0.win 6).flush t = true ∧ i ∈ ((cfg0.win 6).blk t).view.set := by
  have hi0 : (i 0).val < 64 := (i 0).isLt
  have hi1 : (i 1).val < 1 := (i 1).isLt
  have hi2 : (i 2).val < 51 := (i 2).isLt
  obtain ⟨t, ht⟩ := idx_onto ⟨(i 0).val / 2, by omega⟩
  have q0 : win0_6.index t (0 : Fin 3) = (i 0).val / 2 := ht
  obtain ⟨-, -, -, -, -, -, -, -, -, -, -, -, -, -, e61, e62, -⟩ := idx_facts t
  refine ⟨t, flush0_6 t, ?_⟩
  rw [mem_blk]
  intro a
  match a with
  | ⟨0, _⟩ => show win0_6.index t (0 : Fin 3) * 2 ≤ (i 0).val ∧ (i 0).val < win0_6.index t (0 : Fin 3) * 2 + 2; omega
  | ⟨1, _⟩ => show win0_6.index t (1 : Fin 3) * 1 ≤ (i 1).val ∧ (i 1).val < win0_6.index t (1 : Fin 3) * 1 + 1; omega
  | ⟨2, _⟩ => show win0_6.index t (2 : Fin 3) * 51 ≤ (i 2).val ∧ (i 2).val < win0_6.index t (2 : Fin 3) * 51 + 51; omega

/-- THE OUTPUT ARRAY after the run is `outArr` of the argument arrays. -/
theorem final (c : Dev nD) : (dats m 0 c).arrAt 6 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) covered

end Cert.KernelIdeal.Arr

end
-- ==== Proof.GcnRun.lean ====
/-
  The kernel's whole run, read: after the region and the reshape that follows it, the result holds the specification's
  `result` of the argument arrays, and the arguments are unchanged.

  The region leaves the 64 × 1 × 51 output array at the read-outs of every graph; the one host operation after it
  reshapes that array to 64 × 51, which keeps the row-major position: entry `(b, o)` reads entry `(b, 0, o)`.
-/
import proofs.«137630_j11897059410630_2_alg».proof.Proof.Gen.KernelIdeal.Frame
import proofs.«137630_j11897059410630_2_alg».proof.Proof.GcnArray
import Idealize.ShloMosaic.Lib.Pipeline.Value
import Idealize.ShloMosaic.Lib.StableHlo.Run
import Idealize.ShloMosaic.Lib.ValueLayout

set_option maxRecDepth 16384

noncomputable section

namespace Cert.KernelIdeal.Run

open Cert.KernelIdeal Cert.KernelIdeal.Gen Cert.KernelIdeal.Arr Idealize.ShloMosaic Idealize.ShloMosaic.TcCoe Idealize.ShloMosaic.ValueIdx Cert.Gcn
open Idealize.SL.Sem Idealize.ShloMosaic.StableHlo
open Idealize.ShloMosaic.Pipeline (Dat)

variable (m : (ℓ : Loc nD τ sig) → Buf (Elt Ideal) ℓ) (ρ : Dev nD → PrngReg)

/-- The reshape of the output array: entry `(b, o)` of the result is the array's entry `(b, 0, o)`, graph `b`'s
    read-out `o`. -/
theorem reshaped (x : S64x1024x64.Idx → EReal) (a : S64x1024x1024.Idx → EReal) (W0 : S64x128.Idx → EReal)
    (W1 W2 : S128x128.Idx → EReal) (Wd : S128x51.Idx → EReal) (h : S64x1x51.ShapeCasts S64x51) :
    shapeCast S64x51 (outArr x a W0 W1 W2 Wd) h = result x a W0 W1 W2 Wd := by
  funext i
  obtain ⟨b, o, rfl⟩ : ∃ (b : Fin 64) (o : Fin 51), i = (ix2 b o : S64x51.Idx) := ⟨i 0, i 1, eq_ix2 (n0 := 64) (n1 := 51) i⟩
  refine (shapeCast_apply _ h (ix2 b o : S64x51.Idx) (ix3 b (0 : Fin 1) o : S64x1x51.Idx) ?_).trans rfl
  rw [Shape.rowMajor_val_three, Shape.rowMajor_val_two]
  show (b.val * 1 + 0) * 51 + o.val = b.val * 51 + o.val
  omega

/-- What the host operation after the region leaves in the result buffer. -/
theorem tail_eq (c : Dev nD) :
    Pipeline.afterTail₀ cfgs (dats m) 0 (V0 m) [hostOps1] c main_v1
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hA : Pipeline.withArrays (cfgs 0).spec c (V0 m c) (fun w => (dats m 0 c).arrAt w (cfgs 0).N) (Proc.tc.devRef main_v0)
      = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (Pipeline.withArrays_arr spec0 launch0.win.arr_inj c _ _ 6).trans (final m c)
  unfold Pipeline.afterTail₀
  show StableHlo.after hostOps1 _ (Proc.devRef .tc main_v1) = _
  after_results
  show shapeCast S64x51 (Pipeline.withArrays (cfgs 0).spec c (V0 m c) (fun w => (dats m 0 c).arrAt w (cfgs 0).N) (Proc.tc.devRef main_v0)) shapeCasts_S64x1x51_S64x51 = _
  rw [hA]
  exact reshaped _ _ _ _ _ _ _

/-- THE RUN, READ: every weakly fair execution of the kernel's program ends with the result at `result` of the
    argument arrays and the arguments unchanged. -/
theorem run : θ_run defs (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v1 (Pipeline.mem_restRefs_of main_v1 rfl (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Run

end
-- ==== Proof.lean ====
/-
  Three stacked graph convolutions, a dense read-out and a sum over the nodes, for a batch of 64 graphs: the kernel
  against its reference, over the extended reals.

  For graph `b` with adjacency `a` and node features `x` both programs compute
  `sum over nodes n of relu ((relu (a · (relu (a · (relu (a · (x · W0)) · W1)) · W2)) · Wd) n o)`.
  The kernel does it two graphs per grid point, with every operand narrowed to a shorter float format before each
  product — which changes nothing on the extended reals — and writes a 64 × 1 × 51 array that a reshape then flattens;
  the reference does it on the whole batch with batched contractions and a sum along the node axis. Products, sums and
  maxima are the exact ones on both sides and appear in the same nesting, so no algebraic law beyond the value of the
  zero word is needed, and the finiteness of the inputs is never used.

  The specification (one function of the six argument arrays) is in GcnSpec; the reference's stages are read against
  it in GcnReference; the kernel's arithmetic in GcnBody, its output block in GcnBlock, the output array and the
  covering by blocks in GcnArray, the reshape and the whole run in GcnRun. The kernel has no idealization rewrites, so
  `preserves` has nothing to state. The three frames are the generated ones (the reference's is its generated run
  with the result dropped).
-/
import proofs.«137630_j11897059410630_2_alg».proof.Defs
import proofs.«137630_j11897059410630_2_alg».proof.Proof.Gen.Kernel
import proofs.«137630_j11897059410630_2_alg».proof.Proof.Gen.Kernel.Skeleton
import proofs.«137630_j11897059410630_2_alg».proof.Proof.Gen.Kernel.Launch
import proofs.«137630_j11897059410630_2_alg».proof.Proof.Gen.Kernel.Points
import proofs.«137630_j11897059410630_2_alg».proof.Proof.Gen.Kernel.Frame
import proofs.«137630_j11897059410630_2_alg».proof.Proof.Gen.KernelIdeal
import proofs.«137630_j11897059410630_2_alg».proof.Proof.Gen.KernelIdeal.Skeleton
import proofs.«137630_j11897059410630_2_alg».proof.Proof.Gen.KernelIdeal.Launch
import proofs.«137630_j11897059410630_2_alg».proof.Proof.Gen.KernelIdeal.Points
import proofs.«137630_j11897059410630_2_alg».proof.Proof.Gen.KernelIdeal.Frame
import proofs.«137630_j11897059410630_2_alg».proof.Proof.Gen.ReferenceIdeal
import proofs.«137630_j11897059410630_2_alg».proof.Proof.Gen.Pre_finite_inputs
import proofs.«137630_j11897059410630_2_alg».proof.Proof.Gen.ReferenceIdeal.Run
import proofs.«137630_j11897059410630_2_alg».proof.Proof.Gen.ReferenceIdeal.Read
import proofs.«137630_j11897059410630_2_alg».proof.Proof.GcnReference
import proofs.«137630_j11897059410630_2_alg».proof.Proof.GcnRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result at the specification's `result`
    of those arguments: the kernel by its run read through the blocks and the reshape, the reference by its stages. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_result,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
